-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S16x4096 .f32) (main_arg4 : FVec F S4096x16 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S1x4096, .f32⟩
  | .hbm, ⟨12, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S4096x4096_S4096x4096_1_0 : S4096x4096.Transposes [1, 0] S4096x4096
  bcast_S_S4096x4096 : S_.BroadcastsInDim S4096x4096 (![] : Fin 0 → Fin S4096x4096.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S4096x16_S16x4096_S4096x4096_1_0_0_1_n_n_wf : DotDims.WF S4096x16 S16x4096 S4096x4096 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x4096 : Shape := ⟨2, ![1, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S4096x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []
  dot_S4096x16_S16x4096_S4096x4096_1_0_0_1_n_n_wf : DotDims.WF S4096x16 S16x4096 S4096x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.Payloads.lean ====
/-
  What the kernel body stores, read at an entry at the ideal values.

  The body writes its output block three ways: zeros (at the first block of the contracted axis); the block's
  previous contents plus the product of the x block and the weight block (every step); and, after the last step, the
  contents plus the bias row broadcast down the rows.  At entry j = (p, q): 0;  acc(p,q) + Σ_k x(p,k)·w(k,q);
  acc(p,q) + bias(0,q).
-/
import proofs.«145663_j13056700580108_2_alg».proof.Proof.Gen.KernelIdeal.Skeleton
import proofs.«145663_j13056700580108_2_alg».proof.Proof.LibMatmul
import Idealize.ShloMosaic.Lib.Pipeline.Value
import Idealize.ShloMosaic.Lib.ValueIdx
import Idealize.ShloMosaic.PureOps.Ideal.Laws

noncomputable section

open scoped BigOperators

namespace Cert.KernelIdeal.Payloads

open Cert.KernelIdeal Cert.KernelIdeal.Gen Idealize.ShloMosaic Idealize.ShloMosaic.ValueIdx Cert.LibMatmul

/-- The zero splat is 0 at every entry. -/
theorem zero_at (j : S1024x1024.Idx) : k0_pay1 (F := Ideal) j = 0 :=
  Ideal.ofBits_zero_f32

/-- One accumulation step: the previous contents plus the blocks' matrix product. -/
theorem step_at (acc x0 x1 : Vec Ideal S1024x1024 .f32) (j : S1024x1024.Idx) :
    k0_pay2 acc x0 x1 j = acc j + MM x0 x1 j := by
  unfold k0_pay2
  simp only [shapeCast_self, matmul]
  rw [matmul_zero_eq dot_S1024x1024_S1024x1024_S1024x1024_1_0_0_1_n_n rfl rfl rfl rfl rfl rfl]
  rfl

/-- The bias step: the contents plus the bias row's entry in the same column. -/
theorem bias_at (acc : Vec Ideal S1024x1024 .f32) (x2 : Vec Ideal S1x1024 .f32) (j : S1024x1024.Idx) :
    k0_pay3 acc x2 j = acc j + x2 (ix2 0 (j 1)) := by
  unfold k0_pay3
  simp only [shapeCast_self]
  show acc j + broadcastTo S1024x1024 x2 broadcasts_S1x1024_S1024x1024 j = _
  rw [broadcastTo_apply x2 broadcasts_S1x1024_S1024x1024 j (ix2 0 (j 1)) (fun a => by
    match a with
    | ⟨0, _⟩ => show 0 = if (1 : Nat) = 1 then 0 else _; rw [if_pos rfl]
    | ⟨1, _⟩ => show (j 1).val = if (1024 : Nat) = 1 then 0 else _; rw [if_neg (by decide)]; rfl)]

end Cert.KernelIdeal.Payloads

end
-- ==== Proof.LibBlockSum.lean ====
/-
  Sums over a long axis taken block by block.

  A kernel that walks an axis of extent `N = T * R` in `T` blocks of `R` rows and keeps a running total adds up, in the
  end, the same terms as one sum over the whole axis: in a commutative monoid (the extended reals under `+` are one, infinities
  included) only the grouping differs.  Stated over an arbitrary commutative monoid, for literal or symbolic extents.
-/
import Idealize.ShloMosaic.Lib.ValueIdx

namespace Cert.LibBlockSum

open Finset

variable {M : Type*} [AddCommMonoid M]

/-- Row `r` of block `t`, as a row of the whole axis: `t * R + r`. -/
def row {T R : ℕ} (t : Fin T) (r : Fin R) : Fin (T * R) :=
  ⟨t.val * R + r.val, by
    have ht := t.isLt
    have hr := r.isLt
    calc t.val * R + r.val < t.val * R + R := by omega
      _ = (t.val + 1) * R := by ring
      _ ≤ T * R := Nat.mul_le_mul_right R ht⟩

@[simp] theorem row_val {T R : ℕ} (t : Fin T) (r : Fin R) : (row t r).val = t.val * R + r.val := rfl

/-- A sum over an axis of extent `T * R` is the sum over the `T` blocks of the sums over each block's `R` rows. -/
theorem sum_blocks (T R : ℕ) (f : Fin (T * R) → M) :
    ∑ i, f i = ∑ t : Fin T, ∑ r : Fin R, f (row t r) := by
  rw [← Equiv.sum_comp finProdFinEquiv f, Fintype.sum_prod_type]
  refine Finset.sum_congr rfl fun t _ => Finset.sum_congr rfl fun r _ => congrArg f ?_
  apply Fin.ext
  simp only [finProdFinEquiv_apply_val, row_val]
  ring

/-- The same over an axis whose extent `N` is given as a number with `T * R = N` (for instance `20 * 5000 = 100000`):
    the row `t * R + r` is named by its value. -/
theorem sum_blocks_of_eq {N : ℕ} (T R : ℕ) (h : T * R = N) (f : Fin N → M) :
    ∑ i, f i = ∑ t : Fin T, ∑ r : Fin R,
      f ⟨t.val * R + r.val, h ▸ (row t r).isLt⟩ := by
  subst h
  exact sum_blocks T R f

/-- A running total: start from `0`, add `g 0`, then `g 1`, … — what an accumulator holds after `k` steps. -/
def running (g : ℕ → M) : ℕ → M
  | 0 => 0
  | k + 1 => running g k + g k

@[simp] theorem running_zero (g : ℕ → M) : running g 0 = 0 := rfl
@[simp] theorem running_succ (g : ℕ → M) (k : ℕ) : running g (k + 1) = running g k + g k := rfl

/-- After `k` steps the accumulator holds the sum of the first `k` contributions. -/
theorem running_eq_sum_range (g : ℕ → M) (k : ℕ) : running g k = ∑ t ∈ Finset.range k, g t := by
  induction k with
  | zero => simp
  | succ k ih => rw [running_succ, ih, Finset.sum_range_succ]

/-- After all `T` steps: the sum over the `T` blocks. -/
theorem running_eq_sum_fin (g : ℕ → M) (T : ℕ) : running g T = ∑ t : Fin T, g t.val := by
  rw [running_eq_sum_range, Finset.sum_range]

/-- An accumulator fed block sums of `f` ends at the sum of `f` over the whole axis. -/
theorem running_blocks (T R : ℕ) (f : Fin (T * R) → M) (g : ℕ → M)
    (hg : ∀ t : Fin T, g t.val = ∑ r : Fin R, f (row t r)) :
    running g T = ∑ i, f i := by
  rw [running_eq_sum_fin, sum_blocks]
  exact Finset.sum_congr rfl fun t _ => hg t

end Cert.LibBlockSum
-- ==== Proof.FoldedLaw.lean ====
/-
  A dense layer with a low-rank correction, computed two ways.

  Written out, the layer is  out(t, n) = (Σ_k x(t,k)·W(n,k) + b(n)) + c · Σ_k x(t,k)·L(k,n)  with  L(k,n) = Σ_s B(k,s)·A(s,n).
  The other way folds the correction into the weight first,  M(k,n) = W(n,k) + c·L(k,n),  and accumulates the product
  x·M over the four consecutive blocks of 1024 positions of the contracted axis, starting from zero; the bias is added
  after the last block.

  For real entries the two agree: term by term  x·(w + c·l) = x·w + c·(x·l),  and a sum over 4096 positions is the sum
  of its four blocks.  On the extended reals the distributive step fails at infinities, so the law is stated for arrays
  all of whose entries are real numbers, and proved by carrying it back to the reals.
-/
import proofs.«145663_j13056700580108_2_alg».proof.Proof.LibMatmul
import proofs.«145663_j13056700580108_2_alg».proof.Proof.LibBlockSum

noncomputable section

open scoped BigOperators

namespace Cert.FoldedLaw

open Idealize.ShloMosaic Idealize.ShloMosaic.ValueIdx

/-- Position `k'` of block `j` on an axis of 4096 positions cut into four blocks of 1024. -/
def kAt (j : Fin 4) (k' : Fin 1024) : Fin 4096 :=
  ⟨j.val * 1024 + k'.val, by have := j.isLt; have := k'.isLt; omega⟩

@[simp] theorem kAt_val (j : Fin 4) (k' : Fin 1024) : (kAt j k').val = j.val * 1024 + k'.val := rfl

/-- The inclusion of the reals in the extended reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-! ## Over the reals -/

/-- One block: the folded weight's contribution splits into the plain weight's and `c` times the correction's. -/
theorem block_real {R : ℕ} (x w l : Fin R → ℝ) (c : ℝ) :
    ∑ k, x k * (w k + c * l k) = ∑ k, x k * w k + c * ∑ k, x k * l k := by
  rw [Finset.mul_sum, ← Finset.sum_add_distrib]
  exact Finset.sum_congr rfl fun k _ => by ring

/-- A sum over the 4096 positions is the sum of the four blocks' sums. -/
theorem sum_four_blocks (f : Fin 4096 → ℝ) :
    ∑ k, f k = ∑ k', f (kAt 0 k') + ∑ k', f (kAt 1 k') + ∑ k', f (kAt 2 k') + ∑ k', f (kAt 3 k') := by
  rw [Cert.LibBlockSum.sum_blocks_of_eq 4 1024 (by norm_num) f, Fin.sum_univ_four]
  rfl

/-- The whole row over the reals: four block sums of the folded weight, then the bias, against the layer written out. -/
theorem folded_real (x w l : Fin 4096 → ℝ) (c b : ℝ) :
    ((((0 + ∑ k', x (kAt 0 k') * (w (kAt 0 k') + c * l (kAt 0 k')))
        + ∑ k', x (kAt 1 k') * (w (kAt 1 k') + c * l (kAt 1 k')))
        + ∑ k', x (kAt 2 k') * (w (kAt 2 k') + c * l (kAt 2 k')))
        + ∑ k', x (kAt 3 k') * (w (kAt 3 k') + c * l (kAt 3 k'))) + b
      = (∑ k, x k * w k + b) + c * ∑ k, x k * l k := by
  rw [sum_four_blocks (fun k => x k * w k), sum_four_blocks (fun k => x k * l k),
    block_real (fun k' => x (kAt 0 k')) (fun k' => w (kAt 0 k')) (fun k' => l (kAt 0 k')) c,
    block_real (fun k' => x (kAt 1 k')) (fun k' => w (kAt 1 k')) (fun k' => l (kAt 1 k')) c,
    block_real (fun k' => x (kAt 2 k')) (fun k' => w (kAt 2 k')) (fun k' => l (kAt 2 k')) c,
    block_real (fun k' => x (kAt 3 k')) (fun k' => w (kAt 3 k')) (fun k' => l (kAt 3 k')) c]
  ring

/-! ## On the extended reals, for real entries -/

/-- The same row on the extended reals, every entry the image of a real number. -/
theorem folded_law (x w l : Fin 4096 → ℝ) (c b : ℝ) :
    (((((0 : EReal) + ∑ k', (x (kAt 0 k') : EReal) * ((w (kAt 0 k') : EReal) + (c : EReal) * (l (kAt 0 k') : EReal)))
        + ∑ k', (x (kAt 1 k') : EReal) * ((w (kAt 1 k') : EReal) + (c : EReal) * (l (kAt 1 k') : EReal)))
        + ∑ k', (x (kAt 2 k') : EReal) * ((w (kAt 2 k') : EReal) + (c : EReal) * (l (kAt 2 k') : EReal)))
        + ∑ k', (x (kAt 3 k') : EReal) * ((w (kAt 3 k') : EReal) + (c : EReal) * (l (kAt 3 k') : EReal))) + (b : EReal)
      = ((∑ k, (x k : EReal) * (w k : EReal)) + (b : EReal)) + (c : EReal) * ∑ k, (x k : EReal) * (l k : EReal) := by
  rw [show (0 : EReal) = ((0 : ℝ) : EReal) from rfl]
  simp only [← EReal.coe_mul, ← EReal.coe_add, ← coe_sum]
  exact congrArg Real.toEReal (folded_real x w l c b)

/-! ## The two computations, entry by entry -/

section Arrays

variable (c : EReal) (x : (⟨2, ![8192, 4096]⟩ : Shape).Idx → EReal) (W : (⟨2, ![4096, 4096]⟩ : Shape).Idx → EReal)
  (b : (⟨1, ![4096]⟩ : Shape).Idx → EReal) (A : (⟨2, ![16, 4096]⟩ : Shape).Idx → EReal)
  (B : (⟨2, ![4096, 16]⟩ : Shape).Idx → EReal)

/-- The low-rank correction's entry (k, n): Σ_s B(k,s)·A(s,n). -/
def corr (k n : Fin 4096) : EReal := ∑ s : Fin 16, B (ix2 k s) * A (ix2 s n)

/-- The folded weight's entry (k, n): W(n,k) + c·(B·A)(k,n). -/
def folded (k n : Fin 4096) : EReal := W (ix2 n k) + c * corr A B k n

/-- Block `j`'s contribution to entry (r, n) of x·M. -/
def blockDot (M : Fin 4096 → Fin 4096 → EReal) (j : Fin 4) (r : Fin 8192) (n : Fin 4096) : EReal :=
  ∑ k' : Fin 1024, x (ix2 r (kAt j k')) * M (kAt j k') n

/-- Entry (r, n) as the blocked computation leaves it: zero, the four blocks' contributions in order, then the bias. -/
def blockedAt (r : Fin 8192) (n : Fin 4096) : EReal :=
  ((((0 + blockDot x (folded c W A B) 0 r n) + blockDot x (folded c W A B) 1 r n)
      + blockDot x (folded c W A B) 2 r n) + blockDot x (folded c W A B) 3 r n) + b (ix1 n)

/-- Entry (r, n) of the layer written out. -/
def layerAt (r : Fin 8192) (n : Fin 4096) : EReal :=
  ((∑ k : Fin 4096, x (ix2 r k) * W (ix2 n k)) + b (ix1 n)) + c * ∑ k : Fin 4096, x (ix2 r k) * corr A B k n

/-- With every entry (and the scale) a real number, the blocked computation's entry is the written-out layer's. -/
theorem blockedAt_eq_layerAt (hc : ∃ r : ℝ, c = r) (hx : ∀ i, ∃ r : ℝ, x i = r) (hW : ∀ i, ∃ r : ℝ, W i = r)
    (hb : ∀ i, ∃ r : ℝ, b i = r) (hA : ∀ i, ∃ r : ℝ, A i = r) (hB : ∀ i, ∃ r : ℝ, B i = r)
    (r : Fin 8192) (n : Fin 4096) : blockedAt c x W b A B r n = layerAt c x W b A B r n := by
  obtain ⟨cr, rfl⟩ := hc
  choose xr hxr using hx
  choose Wr hWr using hW
  choose br hbr using hb
  choose Ar hAr using hA
  choose Br hBr using hB
  have hl : ∀ k n, corr A B k n = ((∑ s : Fin 16, Br (ix2 k s) * Ar (ix2 s n) : ℝ) : EReal) := by
    intro k n
    unfold corr
    rw [coe_sum]
    exact Finset.sum_congr rfl fun s _ => by rw [hBr, hAr, EReal.coe_mul]
  unfold blockedAt layerAt blockDot folded
  simp only [hxr, hWr, hbr, hl]
  exact folded_law (fun k => xr (ix2 r k)) (fun k => Wr (ix2 n k)) (fun k => ∑ s : Fin 16, Br (ix2 k s) * Ar (ix2 s n))
    cr (br (ix1 n))

end Arrays

end Cert.FoldedLaw

end
-- ==== Proof.HostSide.lean ====
/-
  The arrays the kernel's region finds, read at an entry.

  Before the region the host forms the folded weight  M = Wᵀ + 2·(B·A)  and views the bias as a one-row matrix.
  Entry (k, n) of M is  W(n,k) + 2·Σ_s B(k,s)·A(s,n);  entry (0, n) of the bias row is b(n).
-/
import proofs.«145663_j13056700580108_2_alg».proof.Proof.Gen.KernelIdeal.Frame
import proofs.«145663_j13056700580108_2_alg».proof.Proof.FoldedLaw
import Idealize.ShloMosaic.Lib.Pipeline.Value
import Idealize.ShloMosaic.Lib.ValueIdx
import Idealize.ShloMosaic.Lib.StableHlo.Run
import Idealize.ShloMosaic.PureOps.Ideal.Laws

noncomputable section

open scoped BigOperators

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo Cert.FoldedLaw Cert.LibMatmul

variable (m : (ℓ : Loc nD τ sig) → Buf (Elt Ideal) ℓ)

/-- The host's term for the folded weight, over any three arrays, read at entry (k, n). -/
theorem folded_term_at (W : FVec Ideal S4096x4096 .f32) (A : FVec Ideal S16x4096 .f32) (B : FVec Ideal S4096x16 .f32)
    (k n : Fin 4096) :
    addf (transpose S4096x4096 [1, 0] W transposes_S4096x4096_S4096x4096_1_0)
        (mulf (broadcastInDim S4096x4096 ![] bcast_S_S4096x4096 (constant (F := Ideal) S_ .f32 0x40000000#32))
          (Host.dotGeneral (F := Ideal) dot_S4096x16_S16x4096_S4096x4096_1_0_0_1_n_n none B A)) (ix2 k n)
      = folded (Ideal.ofBits .f32 0x40000000#32) W A B k n := by
  show transpose S4096x4096 [1, 0] W transposes_S4096x4096_S4096x4096_1_0 (ix2 k n)
      + broadcastInDim S4096x4096 ![] bcast_S_S4096x4096 (constant (F := Ideal) S_ .f32 0x40000000#32) (ix2 k n)
        * Host.dotGeneral (F := Ideal) dot_S4096x16_S16x4096_S4096x4096_1_0_0_1_n_n none B A (ix2 k n) = _
  rw [transpose_apply [1, 0] W transposes_S4096x4096_S4096x4096_1_0 (ix2 k n) (ix2 n k) (fun b => by
      match b with
      | ⟨0, _⟩ => rfl
      | ⟨1, _⟩ => rfl),
    broadcastInDim_apply _ bcast_S_S4096x4096 _ (ix2 k n) ix0 (fun a => a.elim0)]
  simp only [Host.dotGeneral]
  rw [dotGeneral_eq dot_S4096x16_S16x4096_S4096x4096_1_0_0_1_n_n rfl rfl rfl rfl rfl rfl]
  rfl

/-- The weight array the region multiplies by is the folded weight, entry by entry. -/
theorem weight_at (c : Dev nD) (k n : Fin 4096) :
    V m c main_v4 (ix2 k n)
      = folded (Ideal.ofBits .f32 0x40000000#32) (m ((c : Thread nD τ).loc main_arg1))
          (m ((c : Thread nD τ).loc main_arg3)) (m ((c : Thread nD τ).loc main_arg4)) k n := by
  have e : (V m c main_v4 : S4096x4096.Idx → EReal) =
      addf (transpose S4096x4096 [1, 0] (m ((c : Thread nD τ).loc main_arg1)) transposes_S4096x4096_S4096x4096_1_0)
        (mulf (broadcastInDim S4096x4096 ![] bcast_S_S4096x4096 (constant (F := Ideal) S_ .f32 0x40000000#32))
          (Host.dotGeneral (F := Ideal) (φ₁ := .f32) (φ₂ := .f32) dot_S4096x16_S16x4096_S4096x4096_1_0_0_1_n_n none
            (m ((c : Thread nD τ).loc main_arg4)) (m ((c : Thread nD τ).loc main_arg3)))) := by
    dsimp only [Gen.V, Gen.hostOps0]; after_results
  rw [e]
  exact folded_term_at _ _ _ k n

/-- The bias row the region reads is the bias vector laid out as one row. -/
theorem bias_row_at (c : Dev nD) (n : Fin 4096) :
    V m c main_v5 (ix2 0 n) = m ((c : Thread nD τ).loc main_arg2) (ix1 n) := by
  have e : (V m c main_v5 : S1x4096.Idx → EReal) =
      shapeCast S1x4096 (m ((c : Thread nD τ).loc main_arg2)) shapeCasts_S4096_S1x4096 := by
    dsimp only [Gen.V, Gen.hostOps0]; after_results; rfl
  rw [e]
  exact shapeCast_apply _ shapeCasts_S4096_S1x4096 (ix2 0 n) (ix1 n) (by
    rw [Shape.rowMajor_val_one, Shape.rowMajor_val_two]; simp)

end Cert.KernelIdeal.HostSide

end
-- ==== Proof.Blocks.lean ====
/-
  The input blocks a grid point reads, entry by entry.

  The grid has 8 × 4 × 4 points; point t has coordinates (t / 16, t / 4 mod 4, t mod 4): the row block of x and of
  the output, the column block of the weight and of the output, and the block of the contracted axis.  At point t the
  body sees rows 1024·(t/16) … of x at contracted positions 1024·(t mod 4) …, the same contracted positions of the
  weight at columns 1024·(t/4 mod 4) …, and those columns of the bias row.
-/
import proofs.«145663_j13056700580108_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps of the three input windows, decided over the grid's 128 points. -/
theorem index_maps : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4 :=
  (by decide +kernel : ∀ t : Fin grid0.N, _)

/-- The x block at point `t`: entry (p, k') is x at row 1024·(t/16) + p and contracted position 1024·(t mod 4) + k'. -/
theorem x_block_at (c : Dev nD) (t : Fin cfg0.N) (p k' : Fin 1024) (r : Fin 8192) (k : Fin 4096)
    (hr : r.val = t.val / 16 * 1024 + p.val) (hk : k.val = t.val % 4 * 1024 + k'.val) :
    iblk m c 0 t (ix2 p k') = m ((c : Thread nD τ).loc main_arg0) (ix2 r k) := by
  obtain ⟨e0, e1, -⟩ := index_maps t
  have hidx : ((cfg0.win 0).blk t).view.emb (ix2 p k') = (ix2 r k : S8192x4096.Idx) := funext fun a => Fin.ext (by
    match a with
    | ⟨0, _⟩ => show win0_0.index t (0 : Fin 2) * 1024 + 1 * p.val = r.val; omega
    | ⟨1, _⟩ => show win0_0.index t (1 : Fin 2) * 1024 + 1 * k'.val = k.val; omega)
  show V m c main_arg0 (((cfg0.win 0).blk t).view.emb (ix2 p k')) = _
  rw [hidx, V_main_arg0]

/-- The weight block at point `t`: entry (k', q) is the weight at contracted position 1024·(t mod 4) + k' and column
    1024·(t/4 mod 4) + q. -/
theorem w_block_at (c : Dev nD) (t : Fin cfg0.N) (k' q : Fin 1024) (k n : Fin 4096)
    (hk : k.val = t.val % 4 * 1024 + k'.val) (hn : n.val = t.val / 4 % 4 * 1024 + q.val) :
    iblk m c 1 t (ix2 k' q) = V m c main_v4 (ix2 k n) := by
  obtain ⟨-, -, e0, e1, -⟩ := index_maps t
  have hidx : ((cfg0.win 1).blk t).view.emb (ix2 k' q) = (ix2 k n : S4096x4096.Idx) := funext fun a => Fin.ext (by
    match a with
    | ⟨0, _⟩ => show win0_1.index t (0 : Fin 2) * 1024 + 1 * k'.val = k.val; omega
    | ⟨1, _⟩ => show win0_1.index t (1 : Fin 2) * 1024 + 1 * q.val = n.val; omega)
  show V m c main_v4 (((cfg0.win 1).blk t).view.emb (ix2 k' q)) = _
  rw [hidx]

/-- The bias block at point `t`: entry (0, q) is the bias row at column 1024·(t/4 mod 4) + q. -/
theorem b_block_at (c : Dev nD) (t : Fin cfg0.N) (q : Fin 1024) (n : Fin 4096)
    (hn : n.val = t.val / 4 % 4 * 1024 + q.val) :
    iblk m c 2 t (ix2 0 q) = V m c main_v5 (ix2 0 n) := by
  obtain ⟨-, -, -, -, e0, e1⟩ := index_maps t
  have hidx : ((cfg0.win 2).blk t).view.emb (ix2 0 q) = (ix2 0 n : S1x4096.Idx) := funext fun a => Fin.ext (by
    match a with
    | ⟨0, _⟩ => show win0_2.index t (0 : Fin 2) * 1 + 1 * (0 : Fin 1).val = (0 : Fin 1).val; rw [e0]; rfl
    | ⟨1, _⟩ => show win0_2.index t (1 : Fin 2) * 1024 + 1 * q.val = n.val; omega)
  show V m c main_v5 (((cfg0.win 2).blk t).view.emb (ix2 0 q)) = _
  rw [hidx]

end Cert.KernelIdeal.Blocks

end
-- ==== Proof.KernelValue.lean ====
/-
  The kernel's result at an entry.

  The output block holding entry (r, n) is visited at four consecutive grid points, one per block of the contracted
  axis: the first zeroes the block and adds the first partial product, the next two add theirs, and the last adds its
  partial product and then the bias.  Read at the entry's place in the block, what is written back is
  ((((0 + P₀) + P₁) + P₂) + P₃) + b(n), where P_j = Σ_{k'} x(r, 1024·j + k') · M(1024·j + k', n) and M is the folded weight.
-/
import proofs.«145663_j13056700580108_2_alg».proof.Proof.Gen.KernelIdeal.Value
import proofs.«145663_j13056700580108_2_alg».proof.Proof.Payloads
import proofs.«145663_j13056700580108_2_alg».proof.Proof.HostSide
import proofs.«145663_j13056700580108_2_alg».proof.Proof.Blocks
import proofs.«145663_j13056700580108_2_alg».proof.Proof.FoldedLaw

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Cert.FoldedLaw Cert.LibMatmul

variable (m : (ℓ : Loc nD τ sig) → Buf (Elt Ideal) ℓ)

/-- A run of four points: the reset, then three steps. -/
theorem accAt_three {N : ℕ} {α : Type*} (a : (n : ℕ) → n < N → α) (g : (n : ℕ) → n < N → α → α) (b : ℕ)
    (h : b + 3 < N) :
    Pipeline.accAt a g b 3 h
      = g (b + 3) h (g (b + 2) (by omega) (g (b + 1) (by omega) (a b (by omega)))) := rfl

/-- At the second and third point of a run the step adds that point's partial product. -/
theorem step_mid (c : Dev nD) (n : ℕ) (h : n < cfg0.N) (acc : Vec Ideal S1024x1024 .f32)
    (hn : n % 4 = 1 ∨ n % 4 = 2) :
    Value.step3 m c n h acc = k0_pay2 acc (iblk m c 0 ⟨n, h⟩) (iblk m c 1 ⟨n, h⟩) := by
  unfold Value.step3
  rw [if_pos (by omega)]

/-- At the last point of a run the step adds the partial product and then the bias row. -/
theorem step_last (c : Dev nD) (n : ℕ) (h : n < cfg0.N) (acc : Vec Ideal S1024x1024 .f32) (hn : n % 4 = 3) :
    Value.step3 m c n h acc
      = k0_pay3 (k0_pay2 acc (iblk m c 0 ⟨n, h⟩) (iblk m c 1 ⟨n, h⟩)) (iblk m c 2 ⟨n, h⟩) := by
  unfold Value.step3
  rw [if_neg (by omega), if_pos (by omega)]

/-- Four accumulation steps from zero and the bias step, at an entry: over any blocks. -/
theorem fold_at (x0 w0 x1 w1 x2 w2 x3 w3 : Vec Ideal S1024x1024 .f32) (bb : Vec Ideal S1x1024 .f32)
    (j : S1024x1024.Idx) :
    k0_pay3 (k0_pay2 (k0_pay2 (k0_pay2 (k0_pay2 (k0_pay1 (F := Ideal)) x0 w0) x1 w1) x2 w2) x3 w3) bb j
      = ((((0 + MM x0 w0 j) + MM x1 w1 j) + MM x2 w2 j) + MM x3 w3 j) + bb (ix2 0 (j 1)) := by
  rw [Payloads.bias_at, Payloads.step_at, Payloads.step_at, Payloads.step_at, Payloads.step_at, Payloads.zero_at]

/-- The partial product at a point of the run, at the entry's place in the block, is the block's contribution to
    the entry: rows of x and columns of the folded weight as the point's coordinates select them. -/
theorem block_term (c : Dev nD) (n : ℕ) (h : n < cfg0.N) (i : S8192x4096.Idx) (j : Fin 4)
    (hr : n / 16 = (i 0).val / 1024) (hj : n % 4 = j.val) (hc : n / 4 % 4 = (i 1).val / 1024) :
    MM (A := 1024) (K := 1024) (B := 1024) (iblk m c 0 ⟨n, h⟩) (iblk m c 1 ⟨n, h⟩) (Value.loc3Of i)
      = blockDot (m ((c : Thread nD τ).loc main_arg0))
          (folded (Ideal.ofBits .f32 0x40000000#32) (m ((c : Thread nD τ).loc main_arg1))
            (m ((c : Thread nD τ).loc main_arg3)) (m ((c : Thread nD τ).loc main_arg4))) j (i 0) (i 1) := by
  have hp : (Value.loc3Of i 0).val = (i 0).val % 1024 := rfl
  have hq : (Value.loc3Of i 1).val = (i 1).val % 1024 := rfl
  unfold blockDot MM
  refine Finset.sum_congr rfl fun k' _ => ?_
  have hk : (kAt j k').val = n % 4 * 1024 + k'.val := by rw [kAt_val, hj]
  have e1 := Blocks.x_block_at m c ⟨n, h⟩ (Value.loc3Of i 0) k' (i 0) (kAt j k')
    (by show (i 0).val = n / 16 * 1024 + _; omega) hk
  have e2 := (Blocks.w_block_at m c ⟨n, h⟩ k' (Value.loc3Of i 1) (kAt j k') (i 1) hk
    (by show (i 1).val = n / 4 % 4 * 1024 + _; omega)).trans (HostSide.weight_at m c (kAt j k') (i 1))
  exact congrArg₂ (· * ·) e1 e2

/-- The bias row's entry the last point reads is the bias at the entry's column. -/
theorem bias_term (c : Dev nD) (n : ℕ) (h : n < cfg0.N) (i : S8192x4096.Idx)
    (hc : n / 4 % 4 = (i 1).val / 1024) :
    iblk m c 2 ⟨n, h⟩ (ix2 0 (Value.loc3Of i 1)) = m ((c : Thread nD τ).loc main_arg2) (ix1 (i 1)) := by
  have hq : (Value.loc3Of i 1).val = (i 1).val % 1024 := rfl
  exact (Blocks.b_block_at m c ⟨n, h⟩ (Value.loc3Of i 1) (i 1)
    (by show (i 1).val = n / 4 % 4 * 1024 + _; omega)).trans (HostSide.bias_row_at m c (i 1))

/-- THE KERNEL'S RESULT at index `i`: the blocked computation's entry (i₀, i₁) of the argument arrays. -/
theorem result_at (c : Dev nD) (i : S8192x4096.Idx) :
    Value.G3 m c i
      = blockedAt (Ideal.ofBits .f32 0x40000000#32) (m ((c : Thread nD τ).loc main_arg0))
          (m ((c : Thread nD τ).loc main_arg1)) (m ((c : Thread nD τ).loc main_arg2))
          (m ((c : Thread nD τ).loc main_arg3)) (m ((c : Thread nD τ).loc main_arg4)) (i 0) (i 1) := by
  have hi0 : (i 0).val < 8192 := (i 0).isLt
  have hi1 : (i 1).val < 4096 := (i 1).isLt
  have hN : cfg0.N = 128 := N_0
  have hrun : Value.run3Of i = 4 * ((i 0).val / 1024) + (i 1).val / 1024 := by
    show 4 * ((i 0).val / 1024 - 0) + 1 * ((i 1).val / 1024 - 0) = _
    omega
  have hlast : 4 * Value.run3Of i + 3 < cfg0.N := by omega
  unfold Value.G3
  rw [dif_pos hlast, accAt_three,
    step_last m c _ _ _ (by omega), step_mid m c _ _ _ (by omega), step_mid m c _ _ _ (by omega)]
  unfold Value.reset3
  refine (fold_at _ _ _ _ _ _ _ _ _ (Value.loc3Of i)).trans ?_
  unfold blockedAt
  rw [block_term m c (4 * Value.run3Of i) (by omega) i 0 (by omega) (by show _ = 0; omega) (by omega),
    block_term m c (4 * Value.run3Of i + 1) (by omega) i 1 (by omega) (by show _ = 1; omega) (by omega),
    block_term m c (4 * Value.run3Of i + 2) (by omega) i 2 (by omega) (by show _ = 2; omega) (by omega),
    block_term m c (4 * Value.run3Of i + 3) (by omega) i 3 (by omega) (by show _ = 3; omega) (by omega),
    bias_term m c (4 * Value.run3Of i + 3) (by omega) i (by omega)]

end Cert.KernelIdeal.KernelValue

end
-- ==== Proof.RefValue.lean ====
/-
  The reference at an index.

  The reference computes the layer as written: x·Wᵀ, plus the bias broadcast down the rows, plus the scale times
  x·(B·A).  Read one stage at a time at the ideal values, entry (r, n) of its result is
  (Σ_k x(r,k)·W(n,k) + b(n)) + c·Σ_k x(r,k)·Σ_s B(k,s)·A(s,n), with c the scale's literal.
-/
import proofs.«145663_j13056700580108_2_alg».proof.Proof.Gen.ReferenceIdeal.Read
import proofs.«145663_j13056700580108_2_alg».proof.Proof.FoldedLaw

noncomputable section

open scoped BigOperators

namespace Cert.ReferenceIdeal.RefValue

open Cert.ReferenceIdeal Cert.ReferenceIdeal.Gen Cert.ReferenceIdeal.Read Idealize.ShloMosaic Idealize.ShloMosaic.ValueIdx
open Cert.FoldedLaw

/-- The reference's result at index `i` is the written-out layer's entry (i₀, i₁), the scale being the literal 2.0. -/
theorem result_at (x0 : S8192x4096.Idx → EReal) (x1 : S4096x4096.Idx → EReal) (x2 : S4096.Idx → EReal)
    (x3 : S16x4096.Idx → EReal) (x4 : S4096x16.Idx → EReal) (i : S8192x4096.Idx) :
    val_main_v9 (F := Ideal) x0 x1 x2 x3 x4 i
      = layerAt (Ideal.ofBits .f32 0x40000000#32) x0 x1 x2 x3 x4 (i 0) (i 1) := by
  -- the stages' composed index functions are the coordinates
  have e1 : ∀ k : Fin 4096, lidx_main_v1 i k = ix2 (i 0) k := fun k =>
    funext fun a => by match a with | ⟨0, _⟩ => rfl | ⟨1, _⟩ => rfl
  have e2 : ∀ k : Fin 4096, idx_main_v0 (ridx_main_v1 i k) = ix2 (i 1) k := fun k =>
    funext fun a => by match a with | ⟨0, _⟩ => rfl | ⟨1, _⟩ => rfl
  have e3 : idx_main_v2 (idx_main_v3 i) = ix1 (i 1) :=
    funext fun a => by match a with | ⟨0, _⟩ => rfl
  have e4 : ∀ k : Fin 4096, lidx_main_v6 i k = ix2 (i 0) k := fun k =>
    funext fun a => by match a with | ⟨0, _⟩ => rfl | ⟨1, _⟩ => rfl
  have e5 : ∀ (k : Fin 4096) (s : Fin 16), lidx_main_v5 (ridx_main_v6 i k) s = ix2 k s := fun k s =>
    funext fun a => by match a with | ⟨0, _⟩ => rfl | ⟨1, _⟩ => rfl
  have e6 : ∀ (k : Fin 4096) (s : Fin 16), ridx_main_v5 (ridx_main_v6 i k) s = ix2 s (i 1) := fun k s =>
    funext fun a => by match a with | ⟨0, _⟩ => rfl | ⟨1, _⟩ => rfl
  simp only [val_main_v9_apply, val_main_v4_apply, val_main_v8_apply, val_main_v1_apply, val_main_v0_apply,
    val_main_v3_apply, val_main_v2_apply, val_main_v7_apply, val_main_cst_apply, val_main_v6_apply, val_main_v5_apply,
    e1, e2, e3, e4, e5, e6]
  rfl

end Cert.ReferenceIdeal.RefValue

end
-- ==== Proof.Finite.lean ====
/-
  The precondition, read back: every entry of every argument is a real number.

  The precondition is the conjunction, over the five arguments, of "every entry's absolute value is below +∞".  An
  extended real whose absolute value max(x, −x) is below +∞ is neither +∞ nor −∞, so it is (the image of) a real.
-/
import proofs.«145663_j13056700580108_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

instance : Subsingleton S_.Idx := ⟨fun _ _ => funext fun d => d.elim0⟩

/-- The f32 pattern of +∞ denotes the top element. -/
theorem inf_word : Ideal.ofBits .f32 0x7F800000#32 = ⊤ := by simp [Ideal.ofBits, Ideal.ieee]

/-- An extended real whose absolute value compares below +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = r := by
  have h' : max x (-x) < ⊤ := by
    have h2 : Ideal.cmp .olt (max x (-x)) (Ideal.ofBits .f32 0x7F800000#32) = 1#1 := h
    rw [inf_word] at h2
    by_contra hc
    simp [Ideal.cmp, hc] at h2
  have hx : x ≠ ⊤ := ne_top_of_lt (lt_of_le_of_lt (le_max_left _ _) h')
  have hnx : x ≠ ⊥ := fun e => by rw [e] at h'; simp at h'
  exact ⟨x.toReal, (EReal.coe_toReal hx hnx).symm⟩

variable [Cert.Pre_finite_inputs.Facts]

/-- Under the precondition all five arguments have real entries. -/
theorem real_entries (x0 : FVec Ideal S8192x4096 .f32) (x1 : FVec Ideal S4096x4096 .f32) (x2 : FVec Ideal S4096 .f32)
    (x3 : FVec Ideal S16x4096 .f32) (x4 : FVec Ideal S4096x16 .f32)
    (h : Cert.Pre_finite_inputs.fn (F := Ideal) x0 x1 x2 x3 x4 = fun _ => 1#1) :
    (∀ i, ∃ r : ℝ, x0 i = r) ∧ (∀ i, ∃ r : ℝ, x1 i = r) ∧ (∀ i, ∃ r : ℝ, x2 i = r)
      ∧ (∀ i, ∃ r : ℝ, x3 i = r) ∧ (∀ i, ∃ r : ℝ, x4 i = r) := by
  have h0 := congrFun h ix0
  dsimp only [Cert.Pre_finite_inputs.fn, Cert.Pre_finite_inputs.fn_part1] at h0
  obtain ⟨h0123, r4⟩ := IntOp.andi_eq_one.1 h0
  obtain ⟨h012, r3⟩ := IntOp.andi_eq_one.1 h0123
  obtain ⟨h01, r2⟩ := IntOp.andi_eq_one.1 h012
  obtain ⟨r0, r1⟩ := IntOp.andi_eq_one.1 h01
  exact ⟨fun i => real_of_abs_lt_inf _ (Host.reduce_andi_all _ _ _ _ ix0 r0 i),
    fun i => real_of_abs_lt_inf _ (Host.reduce_andi_all _ _ _ _ ix0 r1 i),
    fun i => real_of_abs_lt_inf _ (Host.reduce_andi_all _ _ _ _ ix0 r2 i),
    fun i => real_of_abs_lt_inf _ (Host.reduce_andi_all _ _ _ _ ix0 r3 i),
    fun i => real_of_abs_lt_inf _ (Host.reduce_andi_all _ _ _ _ ix0 r4 i)⟩

end Cert.Finite

end
-- ==== Proof.lean ====
/-
  A dense layer with a low-rank correction: out = x·Wᵀ + b + 2·(x·(B·A)), for x of 8192 × 4096, W of 4096 × 4096,
  b of 4096, A of 16 × 4096 and B of 4096 × 16.

  The reference computes the layer as written.  The kernel first folds the correction into the weight on the host,
  M = Wᵀ + 2·(B·A), and then multiplies x by M tile by tile: the output is cut into 8 × 4 blocks of 1024 × 1024, and each
  block is accumulated over the four blocks of the contracted axis — zeroed at the first, the bias row added after the
  last.  Entry (r, n) of the kernel's result is therefore ((((0 + P₀) + P₁) + P₂) + P₃) + b(n) with
  P_j = Σ_{k'} x(r, 1024·j + k')·M(1024·j + k', n), and entry (r, n) of the reference's is
  (Σ_k x(r,k)·W(n,k) + b(n)) + 2·Σ_k x(r,k)·(B·A)(k,n).

  The two are equal when every entry is a real number: x·(w + 2·l) = x·w + 2·(x·l) term by term, and the sum over the
  4096 contracted positions is the sum of its four blocks.  The distributive step is false at infinities of the
  extended reals, so the precondition (every input finite) is used: it makes every entry the image of a real, and the
  identity is proved over the reals and carried back.  The scale 2 enters only as a finite number.
-/
import proofs.«145663_j13056700580108_2_alg».proof.Defs
import proofs.«145663_j13056700580108_2_alg».proof.Proof.Gen.Kernel.Frame
import proofs.«145663_j13056700580108_2_alg».proof.Proof.Gen.KernelIdeal.Value
import proofs.«145663_j13056700580108_2_alg».proof.Proof.Gen.Pre_finite_inputs
import proofs.«145663_j13056700580108_2_alg».proof.Proof.Gen.ReferenceIdeal.Run
import proofs.«145663_j13056700580108_2_alg».proof.Proof.KernelValue
import proofs.«145663_j13056700580108_2_alg».proof.Proof.RefValue
import proofs.«145663_j13056700580108_2_alg».proof.Proof.Finite
import Idealize.ShloMosaic.Adequacy
import Idealize.ShloMosaic.Init

noncomputable section

namespace Cert.Proof

open Idealize.ShloMosaic Idealize.SL.Sem

/-- The scale's f32 pattern denotes the real number 2. -/
theorem scale_real : ∃ r : ℝ, Ideal.ofBits .f32 0x40000000#32 = r :=
  ⟨2, by simp [Ideal.ofBits, Ideal.ieee, -EReal.coe_mul]; norm_num⟩

/-- The idealized kernel runs and leaves its arguments as they were: its value run, the result dropped. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments as they were: its run, the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the arguments both programs end with the same array: entry by entry the reference's
    written-out layer is the kernel's blocked computation, all entries being real under the precondition. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.Read.val_main_v9_eq]
  funext i
  obtain ⟨f0, f1, f2, f3, f4⟩ := Cert.Finite.real_entries _ _ _ _ _ (hpre c)
  rw [Cert.ReferenceIdeal.RefValue.result_at, Cert.KernelIdeal.KernelValue.result_at]
  exact (Cert.FoldedLaw.blockedAt_eq_layerAt _ _ _ _ _ _ scale_real f0 f1 f2 f3 f4 (i 0) (i 1)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
